-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S16 : Shape := ⟨1, ![16]⟩
abbrev S4x64 : Shape := ⟨2, ![4, 64]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S16x64x256x256 .f32) (main_arg1 : IVec S16 32) (main_arg2 : FVec F S4x64 .f32) (main_arg3 : FVec F S4x64 .f32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  let main_v4 : FVec F S4x64 .f32 := Host.absf main_arg2
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S4x64 .f32 := Host.absf main_arg3
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  main_v13
-- ==== Kernel.lean ====
abbrev S16x64x256x256 : Shape := ⟨4, ![16, 64, 256, 256]⟩
abbrev S16 : Shape := ⟨1, ![16]⟩
abbrev S4x64 : Shape := ⟨2, ![4, 64]⟩
abbrev S_ : Shape := ⟨0, ![]⟩
abbrev S16x1 : Shape := ⟨2, ![16, 1]⟩
abbrev S16x64 : Shape := ⟨2, ![16, 64]⟩
abbrev S16x64x1x1 : Shape := ⟨4, ![16, 64, 1, 1]⟩
abbrev S1x16x256x256 : Shape := ⟨4, ![1, 16, 256, 256]⟩
abbrev S1x16x1x1 : Shape := ⟨4, ![1, 16, 1, 1]⟩
abbrev S1x16x256 : Shape := ⟨3, ![1, 16, 256]⟩
abbrev S1x16x256x1 : Shape := ⟨4, ![1, 16, 256, 1]⟩
abbrev S1x16x1 : Shape := ⟨3, ![1, 16, 1]⟩

abbrev nBuf : Space → Nat
  | .hbm => 25
  | .vmem => 8
  | .smem => 0
  | _ => 0

abbrev bufTy : (tb : Table) → Fin (tcTables nBuf tb) → BufTy
  | .hbm, ⟨0, _⟩ => ⟨S16x64x256x256, .f32⟩
  | .hbm, ⟨1, _⟩ => ⟨S16, .i32⟩
  | .hbm, ⟨2, _⟩ => ⟨S4x64, .f32⟩
  | .hbm, ⟨3, _⟩ => ⟨S4x64, .f32⟩
  | .hbm, ⟨4, _⟩ => ⟨S_, .i32⟩
  | .hbm, ⟨5, _⟩ => ⟨S16, .i32⟩
  | .hbm, ⟨6, _⟩ => ⟨S16, .i1⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S16, .i32⟩
  | .hbm, ⟨11, _⟩ => ⟨S16x1, .i32⟩
  | .hbm, ⟨12, _⟩ => ⟨S16x64, .f32⟩
  | .hbm, ⟨13, _⟩ => ⟨S16x64x1x1, .f32⟩
  | .hbm, ⟨14, _⟩ => ⟨S_, .i32⟩
  | .hbm, ⟨15, _⟩ => ⟨S16, .i32⟩
  | .hbm, ⟨16, _⟩ => ⟨S16, .i1⟩
  | .hbm, ⟨17, _⟩ => ⟨S_, .i32⟩
  | .hbm, ⟨18, _⟩ => ⟨S16, .i32⟩
  | .hbm, ⟨19, _⟩ => ⟨S16, .i32⟩
  | .hbm, ⟨20, _⟩ => ⟨S16, .i32⟩
  | .hbm, ⟨21, _⟩ => ⟨S16x1, .i32⟩
  | .hbm, ⟨22, _⟩ => ⟨S16x64, .f32⟩
  | .hbm, ⟨23, _⟩ => ⟨S16x64x1x1, .f32⟩
  | .hbm, ⟨24, _⟩ => ⟨S16x64x256x256, .f32⟩
  | .local _ .vmem, ⟨0, _⟩ => ⟨S1x16x256x256, .f32⟩
  | .local _ .vmem, ⟨1, _⟩ => ⟨S1x16x256x256, .f32⟩
  | .local _ .vmem, ⟨2, _⟩ => ⟨S1x16x1x1, .f32⟩
  | .local _ .vmem, ⟨3, _⟩ => ⟨S1x16x1x1, .f32⟩
  | .local _ .vmem, ⟨4, _⟩ => ⟨S1x16x1x1, .f32⟩
  | .local _ .vmem, ⟨5, _⟩ => ⟨S1x16x1x1, .f32⟩
  | .local _ .vmem, ⟨6, _⟩ => ⟨S1x16x256x256, .f32⟩
  | .local _ .vmem, ⟨7, _⟩ => ⟨S1x16x256x256, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S16 : S_.BroadcastsInDim S16 (![] : Fin 0 → Fin S16.rank)
  bcast_S16_S16x1_0 : S16.BroadcastsInDim S16x1 (![0] : Fin 1 → Fin S16x1.rank)
  shapeCasts_S16x64_S16x64x1x1 : S16x64.ShapeCasts S16x64x1x1
  inb_S1x16x256x256_S1x16x256x256_0_0_0_0 : ∀ a, (![0, 0, 0, 0] : Fin 4 → Nat) a + S1x16x256x256.size a ≤ S1x16x256x256.size a
  h_S1x16x256x256 : 0 < S1x16x256x256.numel
  reduces_S1x16x256x256_S1x16x256 : S1x16x256x256.Reduces [3] S1x16x256
  shapeCasts_S1x16x256_S1x16x256x1 : S1x16x256.ShapeCasts S1x16x256x1
  reduces_S1x16x256x1_S1x16x1 : S1x16x256x1.Reduces [2] S1x16x1
  shapeCasts_S1x16x1_S1x16x1x1 : S1x16x1.ShapeCasts S1x16x1x1
  inb_S1x16x1x1_S1x16x1x1_0_0_0_0 : ∀ a, (![0, 0, 0, 0] : Fin 4 → Nat) a + S1x16x1x1.size a ≤ S1x16x1x1.size a
  h_S1x16x1x1 : 0 < S1x16x1x1.numel
  shapeCasts_S1x16x1x1_S1x16x1x1 : S1x16x1x1.ShapeCasts S1x16x1x1
  broadcasts_S1x16x1x1_S1x16x256x256 : S1x16x1x1.Broadcasts S1x16x256x256
  gather_S4x64_S16x1_S16x64_1_0_n_n_0_1_164_wf : GatherDims.WF S4x64 S16x1 S16x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x256x256.size a ≤ S16x64x256x256.size a
  hwx0_0 : ∀ i : grid0.Coords, EltTy.bits .f32 = 32 ∨ (Rect.block (s := S16x64x256x256) S1x16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x1x1.size a ≤ S16x64x1x1.size a
  hwx0_1 : ∀ i : grid0.Coords, EltTy.bits .f32 = 32 ∨ (Rect.block (s := S16x64x1x1) S1x16x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x1x1.size a ≤ S16x64x1x1.size a
  hwx0_2 : ∀ i : grid0.Coords, EltTy.bits .f32 = 32 ∨ (Rect.block (s := S16x64x1x1) S1x16x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x256x256.size a ≤ S16x64x256x256.size a
  hwx0_3 : ∀ i : grid0.Coords, EltTy.bits .f32 = 32 ∨ (Rect.block (s := S16x64x256x256) S1x16x256x256.size (cc0_transform_3 i) (hinb0_3 i)).WholeWords (EltTy.packing .f32)

variable [Facts₀]

def gather_S4x64_S16x1_S16x64_1_0_n_n_0_1_164 : GatherDims S4x64 S16x1 S16x64 where
  offsetDims := [1]
  collapsedSliceDims := [0]
  operandBatchingDims := []
  startIndicesBatchingDims := []
  startIndexMap := [0]
  indexVectorDim := 1
  sliceSizes := ![1, 64]
  wf := gather_S4x64_S16x1_S16x64_1_0_n_n_0_1_164_wf

abbrev win0_0 : Pipeline.Window sig grid0 :=
  Pipeline.Window.ofSpec (Memref.whole main_arg0) S1x16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x16x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x16x1x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x16x256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x64x256x256 : Shape := ⟨4, ![16, 64, 256, 256]⟩
abbrev S16 : Shape := ⟨1, ![16]⟩
abbrev S4x64 : Shape := ⟨2, ![4, 64]⟩
abbrev S_ : Shape := ⟨0, ![]⟩
abbrev S16x64 : Shape := ⟨2, ![16, 64]⟩
abbrev S16x64x1x1 : Shape := ⟨4, ![16, 64, 1, 1]⟩
abbrev S16x1 : Shape := ⟨2, ![16, 1]⟩

abbrev nBuf : Space → Nat
  | .hbm => 51
  | .vmem => 0
  | .smem => 0
  | _ => 0

abbrev bufTy : (tb : Table) → Fin (tcTables nBuf tb) → BufTy
  | .hbm, ⟨0, _⟩ => ⟨S16x64x256x256, .f32⟩
  | .hbm, ⟨1, _⟩ => ⟨S16, .i32⟩
  | .hbm, ⟨2, _⟩ => ⟨S4x64, .f32⟩
  | .hbm, ⟨3, _⟩ => ⟨S4x64, .f32⟩
  | .hbm, ⟨4, _⟩ => ⟨S_, .f32⟩
  | .hbm, ⟨5, _⟩ => ⟨S16x64, .f32⟩
  | .hbm, ⟨6, _⟩ => ⟨S16x64x1x1, .f32⟩
  | .hbm, ⟨7, _⟩ => ⟨S_, .f32⟩
  | .hbm, ⟨8, _⟩ => ⟨S16x64x1x1, .f32⟩
  | .hbm, ⟨9, _⟩ => ⟨S16x64x1x1, .f32⟩
  | .hbm, ⟨10, _⟩ => ⟨S16x64x256x256, .f32⟩
  | .hbm, ⟨11, _⟩ => ⟨S16x64x256x256, .f32⟩
  | .hbm, ⟨12, _⟩ => ⟨S16x64x256x256, .f32⟩
  | .hbm, ⟨13, _⟩ => ⟨S_, .f32⟩
  | .hbm, ⟨14, _⟩ => ⟨S16x64, .f32⟩
  | .hbm, ⟨15, _⟩ => ⟨S16x64x1x1, .f32⟩
  | .hbm, ⟨16, _⟩ => ⟨S_, .f32⟩
  | .hbm, ⟨17, _⟩ => ⟨S16x64x1x1, .f32⟩
  | .hbm, ⟨18, _⟩ => ⟨S16x64x1x1, .f32⟩
  | .hbm, ⟨19, _⟩ => ⟨S16x64x256x256, .f32⟩
  | .hbm, ⟨20, _⟩ => ⟨S16x64x256x256, .f32⟩
  | .hbm, ⟨21, _⟩ => ⟨S_, .f32⟩
  | .hbm, ⟨22, _⟩ => ⟨S16x64x1x1, .f32⟩
  | .hbm, ⟨23, _⟩ => ⟨S16x64x1x1, .f32⟩
  | .hbm, ⟨24, _⟩ => ⟨S16x64x1x1, .f32⟩
  | .hbm, ⟨25, _⟩ => ⟨S16x64x256x256, .f32⟩
  | .hbm, ⟨26, _⟩ => ⟨S16x64x256x256, .f32⟩
  | .hbm, ⟨27, _⟩ => ⟨S_, .i32⟩
  | .hbm, ⟨28, _⟩ => ⟨S16, .i32⟩
  | .hbm, ⟨29, _⟩ => ⟨S16, .i1⟩
  | .hbm, ⟨30, _⟩ => ⟨S_, .i32⟩
  | .hbm, ⟨31, _⟩ => ⟨S16, .i32⟩
  | .hbm, ⟨32, _⟩ => ⟨S16, .i32⟩
  | .hbm, ⟨33, _⟩ => ⟨S16, .i32⟩
  | .hbm, ⟨34, _⟩ => ⟨S16x1, .i32⟩
  | .hbm, ⟨35, _⟩ => ⟨S16x64, .f32⟩
  | .hbm, ⟨36, _⟩ => ⟨S16x64x1x1, .f32⟩
  | .hbm, ⟨37, _⟩ => ⟨S_, .i32⟩
  | .hbm, ⟨38, _⟩ => ⟨S16, .i32⟩
  | .hbm, ⟨39, _⟩ => ⟨S16, .i1⟩
  | .hbm, ⟨40, _⟩ => ⟨S_, .i32⟩
  | .hbm, ⟨41, _⟩ => ⟨S16, .i32⟩
  | .hbm, ⟨42, _⟩ => ⟨S16, .i32⟩
  | .hbm, ⟨43, _⟩ => ⟨S16, .i32⟩
  | .hbm, ⟨44, _⟩ => ⟨S16x1, .i32⟩
  | .hbm, ⟨45, _⟩ => ⟨S16x64, .f32⟩
  | .hbm, ⟨46, _⟩ => ⟨S16x64x1x1, .f32⟩
  | .hbm, ⟨47, _⟩ => ⟨S16x64x256x256, .f32⟩
  | .hbm, ⟨48, _⟩ => ⟨S16x64x256x256, .f32⟩
  | .hbm, ⟨49, _⟩ => ⟨S16x64x256x256, .f32⟩
  | .hbm, ⟨50, _⟩ => ⟨S16x64x256x256, .f32⟩
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]

class Facts₀ : Prop where
  reducesTo_S16x64x256x256_S16x64_d2_3 : S16x64x256x256.ReducesTo [2, 3] S16x64
  h_S_ : 0 < S_.numel
  bcast_S16x64_S16x64x1x1_0_1 : S16x64.BroadcastsInDim S16x64x1x1 (![0, 1] : Fin 2 → Fin S16x64x1x1.rank)
  bcast_S_S16x64x1x1 : S_.BroadcastsInDim S16x64x1x1 (![] : Fin 0 → Fin S16x64x1x1.rank)
  bcast_S16x64x1x1_S16x64x256x256_0_1_2_3 : S16x64x1x1.BroadcastsInDim S16x64x256x256 (![0, 1, 2, 3] : Fin 4 → Fin S16x64x256x256.rank)
  bcast_S_S16 : S_.BroadcastsInDim S16 (![] : Fin 0 → Fin S16.rank)
  bcast_S16_S16x1_0 : S16.BroadcastsInDim S16x1 (![0] : Fin 1 → Fin S16x1.rank)
  gather_S4x64_S16x1_S16x64_1_0_n_n_0_1_164_wf : GatherDims.WF S4x64 S16x1 S16x64 [1] [0] [] [0] [] 1 ![1, 64]

variable [Facts₀]

def gather_S4x64_S16x1_S16x64_1_0_n_n_0_1_164 : GatherDims S4x64 S16x1 S16x64 where
  offsetDims := [1]
  collapsedSliceDims := [0]
  operandBatchingDims := []
  startIndicesBatchingDims := []
  startIndexMap := [0]
  indexVectorDim := 1
  sliceSizes := ![1, 64]
  wf := gather_S4x64_S16x1_S16x64_1_0_n_n_0_1_164_wf

class Facts : Prop extends Facts₀ where

variable [Facts]
-- ==== Proof.Spec.lean ====
/-
  The result as ONE function of the argument arrays, index by index, on the extended reals.

  For `x : [16, 64, 256, 256]` and per-channel scale and shift `g, b : [16, 64]`, entry (n, c, p, q) of the result is

      ((x(n,c,p,q) - μ) · (σ² + ε)^(-1/2)) · g(n,c) + b(n,c)

  where μ is the mean of the channel plane x(n,c,·,·) — its 65536 entries summed from the initial value `0`, the sum
  divided by 65536 — and σ² the mean, taken the same way, of the squared deviations from μ.  The float words are kept as
  words: `0x00000000` is 0, `0x47800000` is 65536, `0x3727C5AC` is the ε both programs share.
-/
import Idealize.ShloMosaic.Lib.ValueIdx
import Idealize.ShloMosaic.PureOps.Ideal

noncomputable section

namespace Cert.InstNorm

open Idealize.ShloMosaic Idealize.ShloMosaic.ValueIdx
open scoped BigOperators

/-- The array's shape and the per-channel shape. -/
abbrev Arr : Shape := ⟨4, ![16, 64, 256, 256]⟩
abbrev Chan : Shape := ⟨2, ![16, 64]⟩

/-- The mean of channel plane (n, c): the plane's sum from the initial value 0, divided by 65536. -/
def mean (x : Arr.Idx → EReal) (n : Fin 16) (c : Fin 64) : EReal :=
  Ideal.div (Ideal.ofBits .f32 0x00000000#32 + ∑ p : Fin 256, ∑ q : Fin 256, x (ix4 n c p q))
    (Ideal.ofBits .f32 0x47800000#32)

/-- The variance of channel plane (n, c): the mean of the squared deviations from the plane's mean. -/
def variance (x : Arr.Idx → EReal) (n : Fin 16) (c : Fin 64) : EReal :=
  Ideal.div (Ideal.ofBits .f32 0x00000000#32
      + ∑ p : Fin 256, ∑ q : Fin 256, (x (ix4 n c p q) - mean x n c) * (x (ix4 n c p q) - mean x n c))
    (Ideal.ofBits .f32 0x47800000#32)

/-- The normalised, scaled and shifted array. -/
def G (x : Arr.Idx → EReal) (g b : Chan.Idx → EReal) : Arr.Idx → EReal := fun i =>
  ((x i - mean x (i 0) (i 1)) * Ideal.rsqrt (variance x (i 0) (i 1) + Ideal.ofBits .f32 0x3727C5AC#32))
      * g (ix2 (i 0) (i 1))
    + b (ix2 (i 0) (i 1))

/-- `G` at an index given by its coordinates. -/
theorem G_apply (x : Arr.Idx → EReal) (g b : Chan.Idx → EReal) (n : Fin 16) (c : Fin 64) (p q : Fin 256) :
    G x g b (ix4 n c p q)
      = ((x (ix4 n c p q) - mean x n c) * Ideal.rsqrt (variance x n c + Ideal.ofBits .f32 0x3727C5AC#32)) * g (ix2 n c)
        + b (ix2 n c) := rfl

end Cert.InstNorm

end
-- ==== Proof.LibTrailingSum.lean ====
/-
  The host's sum along the two trailing axes of a rank-four array, read at an index on the extended reals.

  For an [A, B, C, D] array summed along axes 2 and 3, entry (a, b) of the result is the initial value plus the double
  sum over (p, q) of the array at (a, b, p, q): the indices that reduce to (a, b) are exactly those whose two leading
  coordinates are a and b, and they correspond one to one to the pairs (p, q).  (The library reads a sum along one axis,
  or into a result whose axes all have size one; this is the two-axis form a mean over a spatial plane needs.)
-/
import Idealize.ShloMosaic.Lib.Pipeline.Value
import Idealize.ShloMosaic.Lib.ValueIdx
import Idealize.ShloMosaic.PureOps.Ideal.Laws

noncomputable section

namespace Cert.TrailingSum

open Idealize.ShloMosaic Idealize.ShloMosaic.ValueIdx
open scoped BigOperators

/-- The host's sum along the two trailing axes, read at an entry of the two leading ones. -/
theorem hostReduceAdd_trailing2 {A B C D : ℕ}
    (h' : (⟨4, ![A, B, C, D]⟩ : Shape).ReducesTo [2, 3] ⟨2, ![A, B]⟩)
    (x : (⟨4, ![A, B, C, D]⟩ : Shape).Idx → EReal) (init : EReal) (j : (⟨2, ![A, B]⟩ : Shape).Idx) :
    Ideal.hostReduceAdd h' x init j = init + ∑ p : Fin C, ∑ q : Fin D, x (ix4 (j 0) (j 1) p q) := by
  unfold Ideal.hostReduceAdd
  congr 1
  -- the kept axes of a rank-four shape without axes 2 and 3 are axes 0 and 1, whatever the extents
  have d0 : ∀ i : (⟨4, ![A, B, C, D]⟩ : Shape).Idx, (h'.drop i 0 : ℕ) = i 0 := fun _ => rfl
  have d1 : ∀ i : (⟨4, ![A, B, C, D]⟩ : Shape).Idx, (h'.drop i 1 : ℕ) = i 1 := fun _ => rfl
  have back : ∀ i : (⟨4, ![A, B, C, D]⟩ : Shape).Idx, h'.drop i = j → ix4 (j 0) (j 1) (i 2) (i 3) = i := by
    intro i hi
    funext a
    match a with
    | ⟨0, _⟩ => exact Fin.ext (by rw [← hi]; exact d0 i)
    | ⟨1, _⟩ => exact Fin.ext (by rw [← hi]; exact d1 i)
    | ⟨2, _⟩ => rfl
    | ⟨3, _⟩ => rfl
  rw [← Fintype.sum_prod_type' (f := fun (p : Fin C) (q : Fin D) => x (ix4 (j 0) (j 1) p q))]
  refine Finset.sum_nbij' (fun i => (i 2, i 3)) (fun pq => ix4 (j 0) (j 1) pq.1 pq.2) ?_ ?_ ?_ ?_ ?_
  · intro i _; exact Finset.mem_univ _
  · intro pq _
    refine Finset.mem_filter.2 ⟨Finset.mem_univ _, ?_⟩
    funext b
    match b with
    | ⟨0, _⟩ => exact Fin.ext (d0 _)
    | ⟨1, _⟩ => exact Fin.ext (d1 _)
  · intro i hi; exact back i (Finset.mem_filter.1 hi).2
  · intro pq _; rfl
  · intro i hi; exact (congrArg x (back i (Finset.mem_filter.1 hi).2)).symm

end Cert.TrailingSum

end
-- ==== Proof.PlaneSums.lean ====
/-
  The kernel's sum over a channel plane, read at an index on the extended reals.

  A kernel that sums the lanes (axis 3) of a [1, 16, 256, 256] block, adds a unit axis, and sums the rows (axis 2)
  holds at (0, c, 0) the double sum over (p, q) of the block at (0, c, p, q) — the same double sum the host's two-axis
  reduction gives (LibTrailingSum.lean).
-/
import Idealize.ShloMosaic.Lib.Pipeline.Value
import Idealize.ShloMosaic.Lib.ValueIdx
import Idealize.ShloMosaic.PureOps.Ideal.Laws
import proofs.«108304_j48335561949473_2_alg».proof.Proof.LibTrailingSum

noncomputable section

namespace Cert.InstNorm

open Idealize.ShloMosaic Idealize.ShloMosaic.ValueIdx
open scoped BigOperators

abbrev Blk : Shape := ⟨4, ![1, 16, 256, 256]⟩
abbrev BlkRows : Shape := ⟨3, ![1, 16, 256]⟩
abbrev BlkRowsCol : Shape := ⟨4, ![1, 16, 256, 1]⟩
abbrev BlkChan : Shape := ⟨3, ![1, 16, 1]⟩

/-- Lanes summed, a unit axis added, rows summed: the block's channel plane summed over both of its axes. -/
theorem lanes_rows_sum (P : FVec Ideal Blk .f32) (h3 : Blk.Reduces [3] BlkRows) (hc : BlkRows.ShapeCasts BlkRowsCol)
    (h2 : BlkRowsCol.Reduces [2] BlkChan) (hφ : FKind.Formats .f32)
    (hacc : (0x00000000#32 : BitVec 32) = 0x00000000#32) (c : Fin 16) :
    multiReduction .add [2] BlkChan (shapeCast BlkRowsCol (multiReduction .add [3] BlkRows P 0x00000000#32 h3 hφ hacc) hc)
        0x00000000#32 h2 hφ hacc (ix3 0 c 0)
      = ∑ p : Fin 256, ∑ q : Fin 256, P (ix4 0 c p q) := by
  refine (Ideal.multiReduction_add_single _ 0x00000000#32 h2 hφ hacc (ix3 0 c 0)).trans ?_
  refine Finset.sum_congr rfl fun p _ => ?_
  refine (shapeCast_apply _ hc _ (ix3 0 c p) ?_).trans ?_
  · rfl
  refine (Ideal.multiReduction_add_single P 0x00000000#32 h3 hφ hacc (ix3 0 c p)).trans ?_
  refine Finset.sum_congr rfl fun q _ => congrArg P ?_
  funext a
  match a with
  | ⟨0, _⟩ => rfl
  | ⟨1, _⟩ => rfl
  | ⟨2, _⟩ => rfl
  | ⟨3, _⟩ => rfl

end Cert.InstNorm

end
-- ==== Proof.LibReal.lean ====
/-
  Arrays of real numbers inside the extended reals.

  An array `a : S.Idx → EReal` IS REAL (`Cert.Gcn.IsReal`) when no entry is an infinity.  The algebraic laws that join the two
  programs of this certificate (distributivity, cancelling a factor) hold on the reals and fail at the
  infinities, so every intermediate array has to be known real; this module shows that the host operations the
  programs use keep arrays real: an entry of a gather, a broadcast or a reshape is an entry of the operand; a
  scatter-add, a reduction or a matrix product is a finite sum of (products of) entries; the pointwise sum,
  difference and product of reals are real.
-/
import Idealize.ShloMosaic.Lib.Pipeline.Value
import Idealize.ShloMosaic.Lib.ValueIdx
import Idealize.ShloMosaic.PureOps.Ideal.Laws

noncomputable section

namespace Cert.Gcn

/-- An array of extended reals that holds only real numbers. -/
def IsReal {S : Idealize.ShloMosaic.Shape} (a : S.Idx → EReal) : Prop := ∀ i, a i ≠ ⊤ ∧ a i ≠ ⊥

end Cert.Gcn

namespace Cert.Gcn.Math

open Idealize.ShloMosaic Idealize.ShloMosaic.ValueIdx
open scoped BigOperators

/-! ## Real entries -/

/-- A real number, seen in the extended reals, is neither infinity. -/
theorem coe_real (r : ℝ) : (r : EReal) ≠ ⊤ ∧ (r : EReal) ≠ ⊥ := ⟨EReal.coe_ne_top r, EReal.coe_ne_bot r⟩

/-- An extended real that is neither infinity is a real number. -/
theorem exists_coe {x : EReal} (h : x ≠ ⊤ ∧ x ≠ ⊥) : ∃ r : ℝ, x = r :=
  ⟨x.toReal, (EReal.coe_toReal h.1 h.2).symm⟩

theorem real_iff (x : EReal) : (x ≠ ⊤ ∧ x ≠ ⊥) ↔ ∃ r : ℝ, x = r :=
  ⟨exists_coe, by rintro ⟨r, rfl⟩; exact coe_real r⟩

theorem zero_real : (0 : EReal) ≠ ⊤ ∧ (0 : EReal) ≠ ⊥ := by rw [← EReal.coe_zero]; exact coe_real 0

theorem one_real : (1 : EReal) ≠ ⊤ ∧ (1 : EReal) ≠ ⊥ := by rw [← EReal.coe_one]; exact coe_real 1

theorem add_real {x y : EReal} (hx : x ≠ ⊤ ∧ x ≠ ⊥) (hy : y ≠ ⊤ ∧ y ≠ ⊥) : x + y ≠ ⊤ ∧ x + y ≠ ⊥ := by
  obtain ⟨r, rfl⟩ := exists_coe hx
  obtain ⟨s, rfl⟩ := exists_coe hy
  rw [← EReal.coe_add]; exact coe_real _

theorem sub_real {x y : EReal} (hx : x ≠ ⊤ ∧ x ≠ ⊥) (hy : y ≠ ⊤ ∧ y ≠ ⊥) : x - y ≠ ⊤ ∧ x - y ≠ ⊥ := by
  obtain ⟨r, rfl⟩ := exists_coe hx
  obtain ⟨s, rfl⟩ := exists_coe hy
  rw [← EReal.coe_sub]; exact coe_real _

theorem mul_real {x y : EReal} (hx : x ≠ ⊤ ∧ x ≠ ⊥) (hy : y ≠ ⊤ ∧ y ≠ ⊥) : x * y ≠ ⊤ ∧ x * y ≠ ⊥ := by
  obtain ⟨r, rfl⟩ := exists_coe hx
  obtain ⟨s, rfl⟩ := exists_coe hy
  rw [← EReal.coe_mul]; exact coe_real _

/-- A finite sum of reals is real. -/
theorem sum_real {ι : Type*} (s : Finset ι) (f : ι → EReal) (h : ∀ i ∈ s, f i ≠ ⊤ ∧ f i ≠ ⊥) :
    (∑ i ∈ s, f i) ≠ ⊤ ∧ (∑ i ∈ s, f i) ≠ ⊥ := by
  classical
  induction s using Finset.induction_on with
  | empty => rw [Finset.sum_empty]; exact zero_real
  | insert a s ha ih =>
    rw [Finset.sum_insert ha]
    exact add_real (h a (Finset.mem_insert_self _ _)) (ih fun i hi => h i (Finset.mem_insert_of_mem hi))

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-! ## Real arrays -/

/-- A real array is the coercion of an array of real numbers. -/
theorem isReal_iff {S : Shape} (a : S.Idx → EReal) : IsReal a ↔ ∃ r : S.Idx → ℝ, a = fun i => (r i : EReal) :=
  ⟨fun h => ⟨fun i => (a i).toReal, funext fun i => (EReal.coe_toReal (h i).1 (h i).2).symm⟩,
   by rintro ⟨r, rfl⟩ i; exact coe_real (r i)⟩

theorem isReal_coe {S : Shape} (r : S.Idx → ℝ) : IsReal (S := S) fun i => (r i : EReal) := fun i => coe_real (r i)

/-- An array every entry of which is an entry of a real array is real. -/
theorem isReal_of_entries {S T : Shape} {a : S.Idx → EReal} (ha : IsReal a) (b : T.Idx → EReal)
    (h : ∀ j, ∃ i, b j = a i) : IsReal b := fun j => by
  obtain ⟨i, e⟩ := h j; rw [e]; exact ha i

/-! ## The pointwise operations -/

section Pointwise
variable {s : Shape} {φ : FTy}

theorem addf_real {a b : FVec Ideal s φ} (ha : IsReal a) (hb : IsReal b) : IsReal (addf a b) :=
  fun i => add_real (ha i) (hb i)

theorem subf_real {a b : FVec Ideal s φ} (ha : IsReal a) (hb : IsReal b) : IsReal (subf a b) :=
  fun i => sub_real (ha i) (hb i)

theorem mulf_real {a b : FVec Ideal s φ} (ha : IsReal a) (hb : IsReal b) : IsReal (mulf a b) :=
  fun i => mul_real (ha i) (hb i)

/-- A splat of a word that denotes a real number. -/
theorem constant_real (b : BitVec φ.bits) (h : Ideal.ofBits φ b ≠ ⊤ ∧ Ideal.ofBits φ b ≠ ⊥) :
    IsReal (constant (F := Ideal) s φ b) := fun _ => h

end Pointwise

/-! ## The layout operations: every entry of the result is an entry of the operand -/

theorem broadcastInDim_real {s t : Shape} (dims : Fin s.rank → Fin t.rank) (h : s.BroadcastsInDim t dims)
    {x : s.Idx → EReal} (hx : IsReal x) : IsReal (broadcastInDim t dims h x) := fun _ => hx _

theorem broadcastTo_real {s t : Shape} (h : s.Broadcasts t) {x : s.Idx → EReal} (hx : IsReal x) :
    IsReal (broadcastTo t x h) := fun _ => hx _

theorem shapeCast_real {s t : Shape} (h : s.ShapeCasts t) {x : s.Idx → EReal} (hx : IsReal x) :
    IsReal (shapeCast t x h) := fun _ => hx _

theorem gather_real {s si t : Shape} {w : ℕ} (d : GatherDims s si t) (idx : IVec si w) {x : s.Idx → EReal}
    (hx : IsReal x) : IsReal (Host.gather d x idx) := fun _ => hx _

/-! ## Sums -/

/-- A scatter-add at an index: the operand's entry plus the sum of the updates that land there. -/
theorem scatterAdd_apply {s si su : Shape} {φ : FTy} (d : ScatterDims s si su) {w : ℕ} (idx : IVec si w)
    (z : FVec Ideal s φ) (u : FVec Ideal su φ) (i : s.Idx) :
    Host.scatterAdd (F := Ideal) d z idx u i
      = z i + ∑ j ∈ Finset.univ.filter (fun j => d.resultIdx? j idx = some i), u j := rfl

theorem scatterAdd_real {s si su : Shape} {φ : FTy} (d : ScatterDims s si su) {w : ℕ} (idx : IVec si w)
    {z : FVec Ideal s φ} {u : FVec Ideal su φ} (hz : IsReal z) (hu : IsReal u) :
    IsReal (Host.scatterAdd (F := Ideal) d z idx u) := fun i => by
  rw [scatterAdd_apply]
  exact add_real (hz i) (sum_real _ _ fun j _ => hu j)

/-- A host matrix product of real arrays is real: each entry is a finite sum of products. -/
theorem dotGeneral_real {sl sr so : Shape} {φ₁ φ₂ : FTy} (d : DotDims sl sr so) (prec : Option ContractPrecision)
    {lhs : FVec Ideal sl φ₁} {rhs : FVec Ideal sr φ₂} (hl : IsReal lhs) (hr : IsReal rhs) :
    IsReal (Host.dotGeneral (F := Ideal) d prec lhs rhs) := fun j => by
  show (FloatOps.dotGeneral d prec .single lhs rhs j) ≠ ⊤ ∧ (FloatOps.dotGeneral d prec .single lhs rhs j) ≠ ⊥
  rw [Ideal.dotGeneral_apply]
  exact sum_real _ _ fun k _ => mul_real (hl _) (hr _)

/-- A host sum along some axes, from a real initial value, of a real array is real. -/
theorem reduceAdd_real {s t u : Shape} {φ : FTy} {axes : List (Fin s.rank)} {x : FVec Ideal s φ} {init : u.Idx → Ideal φ}
    (h : s.ReducesTo axes t) (hu : 0 < u.numel) (hx : IsReal x) (hi : IsReal (S := u) init) :
    IsReal (Host.reduceAdd (F := Ideal) x init h hu) := fun j => by
  show Ideal.hostReduceAdd h x (init (Shape.Idx.first hu)) j ≠ ⊤ ∧ Ideal.hostReduceAdd h x (init (Shape.Idx.first hu)) j ≠ ⊥
  unfold Ideal.hostReduceAdd
  exact add_real (hi _) (sum_real _ _ fun i _ => hx i)

/-! ## The reciprocal square root of a positive real -/

theorem rsqrt_real {x : EReal} (hx : ∃ r : ℝ, 0 < r ∧ x = r) : ∃ r : ℝ, Ideal.rsqrt x = r := by
  obtain ⟨r, hr, rfl⟩ := hx
  exact ⟨(Real.sqrt r)⁻¹, by rw [Ideal.rsqrt_coe, if_neg (not_lt.mpr hr.le), if_neg hr.ne']⟩

/-- The reciprocal square root of a positive real is a positive real. -/
theorem rsqrt_pos {x : EReal} (hx : ∃ r : ℝ, 0 < r ∧ x = r) : ∃ r : ℝ, 0 < r ∧ Ideal.rsqrt x = r := by
  obtain ⟨r, hr, rfl⟩ := hx
  exact ⟨(Real.sqrt r)⁻¹, inv_pos.mpr (Real.sqrt_pos.mpr hr),
    by rw [Ideal.rsqrt_coe, if_neg (not_lt.mpr hr.le), if_neg hr.ne']⟩

/-- The word 0x47435000 is the float 50000. -/
theorem N50000 : Ideal.ofBits .f32 0x47435000#32 = ((50000 : ℝ) : EReal) := by
  simp [Ideal.ofBits, Ideal.ieee, -EReal.coe_mul]; norm_num

end Cert.Gcn.Math
-- ==== Proof.NormLaw.lean ====
/-
  The scalar law that joins the two programs, on the extended reals.

  For one channel plane `f : ι → ℝ` of `N` real entries, with sum `S` and sum of squares `Q`:
  the mean of the squared deviations from the mean `μ = S / N` is `Q / N - μ²` (so that difference is never
  negative and clamping it at `0` changes nothing), and for real scale `g`, shift `b` and a positive `e`

      x · (g · r) + (b - μ · (g · r)) = ((x - μ) · r) · g + b      where r = (variance + e)^(-1/2).

  The second identity distributes a product over a difference, which fails at the infinities; it is stated for
  real entries and the reciprocal square root of the positive real `variance + e` is a real.
-/
import Idealize.ShloMosaic.PureOps.Ideal
import Idealize.ShloMosaic.PureOps.Ideal.Laws
import proofs.«108304_j48335561949473_2_alg».proof.Proof.LibReal

noncomputable section

namespace Cert.InstNorm

open Idealize.ShloMosaic
open scoped BigOperators

/-- The mean of the squared deviations from the mean is the mean of the squares minus the square of the mean. -/
theorem variance_identity {ι : Type*} [Fintype ι] (f : ι → ℝ) (N : ℝ) (hN : N = (Fintype.card ι : ℝ)) (hpos : 0 < N) :
    (∑ i, (f i - (∑ i, f i) * (1 / N)) * (f i - (∑ i, f i) * (1 / N))) * (1 / N)
      = (∑ i, f i * f i) * (1 / N) - ((∑ i, f i) * (1 / N)) * ((∑ i, f i) * (1 / N)) := by
  have hN0 : N ≠ 0 := hpos.ne'
  have e : ∀ μ : ℝ, ∑ i, (f i - μ) * (f i - μ) = (∑ i, f i * f i) - 2 * μ * (∑ i, f i) + N * (μ * μ) := by
    intro μ
    have : ∀ i, (f i - μ) * (f i - μ) = f i * f i - 2 * μ * f i + μ * μ := fun i => by ring
    simp only [this, Finset.sum_add_distrib, Finset.sum_sub_distrib, ← Finset.mul_sum, Finset.sum_const,
      Finset.card_univ, nsmul_eq_mul, ← hN]
    ring
  rw [e]
  field_simp
  ring

/-- So the mean of the squares minus the square of the mean is not negative. -/
theorem variance_nonneg {ι : Type*} [Fintype ι] (f : ι → ℝ) (N : ℝ) (hN : N = (Fintype.card ι : ℝ)) (hpos : 0 < N) :
    0 ≤ (∑ i, f i * f i) * (1 / N) - ((∑ i, f i) * (1 / N)) * ((∑ i, f i) * (1 / N)) := by
  rw [← variance_identity f N hN hpos]
  exact mul_nonneg (Finset.sum_nonneg fun i _ => mul_self_nonneg _) (by positivity)

/-- THE LAW.  Left: scale and shift folded into one multiply-add, the variance as the clamped difference of the two
    means, the means as products with `1/N`.  Right: centre, normalise, scale, shift, the variance as the mean of
    the squared deviations, the means as quotients by `N` from an initial value `0`. -/
theorem norm_law {ι : Type*} [Fintype ι] (f : ι → ℝ) (x g b e N : ℝ) (he : 0 < e) (hN : N = (Fintype.card ι : ℝ))
    (hpos : 0 < N) :
    (x : EReal) * ((g : EReal) * Ideal.rsqrt (max ((∑ i, (f i : EReal) * (f i : EReal)) * ((1 / N : ℝ) : EReal)
          - ((∑ i, (f i : EReal)) * ((1 / N : ℝ) : EReal)) * ((∑ i, (f i : EReal)) * ((1 / N : ℝ) : EReal))) 0 + (e : EReal)))
        + ((b : EReal) - ((∑ i, (f i : EReal)) * ((1 / N : ℝ) : EReal))
            * ((g : EReal) * Ideal.rsqrt (max ((∑ i, (f i : EReal) * (f i : EReal)) * ((1 / N : ℝ) : EReal)
          - ((∑ i, (f i : EReal)) * ((1 / N : ℝ) : EReal)) * ((∑ i, (f i : EReal)) * ((1 / N : ℝ) : EReal))) 0 + (e : EReal))))
      = (((x : EReal) - Ideal.div (0 + ∑ i, (f i : EReal)) (N : EReal))
          * Ideal.rsqrt (Ideal.div (0 + ∑ i, ((f i : EReal) - Ideal.div (0 + ∑ i, (f i : EReal)) (N : EReal))
              * ((f i : EReal) - Ideal.div (0 + ∑ i, (f i : EReal)) (N : EReal))) (N : EReal) + (e : EReal))) * (g : EReal)
        + (b : EReal) := by
  have hN0 : N ≠ 0 := hpos.ne'
  -- the real quantities: the sum, the sum of squares, the mean, the mean of squares, the summed squared deviations
  obtain ⟨s, hs⟩ : ∃ s : ℝ, s = ∑ i, f i := ⟨_, rfl⟩
  obtain ⟨q, hq⟩ : ∃ q : ℝ, q = ∑ i, f i * f i := ⟨_, rfl⟩
  obtain ⟨μ, hμ⟩ : ∃ μ : ℝ, μ = s * (1 / N) := ⟨_, rfl⟩
  obtain ⟨m₂, hm₂⟩ : ∃ m₂ : ℝ, m₂ = q * (1 / N) := ⟨_, rfl⟩
  obtain ⟨d, hd⟩ : ∃ d : ℝ, d = ∑ i, (f i - μ) * (f i - μ) := ⟨_, rfl⟩
  have hvar : d * (1 / N) = m₂ - μ * μ := by
    rw [hd, hμ, hm₂, hq, hs]; exact variance_identity f N hN hpos
  have hv0 : 0 ≤ m₂ - μ * μ := by
    rw [hμ, hm₂, hq, hs]; exact variance_nonneg f N hN hpos
  have hS : (∑ i, (f i : EReal)) = (s : EReal) := by rw [hs]; exact (Cert.Gcn.Math.coe_sum _ _).symm
  have hQ : (∑ i, (f i : EReal) * (f i : EReal)) = (q : EReal) := by
    rw [hq, Cert.Gcn.Math.coe_sum]; exact Finset.sum_congr rfl fun i _ => (EReal.coe_mul _ _).symm
  have hSc : (s : EReal) * ((1 / N : ℝ) : EReal) = (μ : EReal) := by rw [hμ]; exact (EReal.coe_mul _ _).symm
  have hQc : (q : EReal) * ((1 / N : ℝ) : EReal) = (m₂ : EReal) := by rw [hm₂]; exact (EReal.coe_mul _ _).symm
  have hmean : Ideal.div (0 + (s : EReal)) (N : EReal) = (μ : EReal) := by
    rw [Ideal.div_coe hN0, zero_add]; exact hSc
  have hdev : (∑ i, ((f i : EReal) - (μ : EReal)) * ((f i : EReal) - (μ : EReal))) = (d : EReal) := by
    rw [hd, Cert.Gcn.Math.coe_sum]
    exact Finset.sum_congr rfl fun i _ => by rw [EReal.coe_mul, EReal.coe_sub]
  have hvr : Ideal.div (0 + (d : EReal)) (N : EReal) = ((m₂ - μ * μ : ℝ) : EReal) := by
    rw [Ideal.div_coe hN0, zero_add, ← EReal.coe_mul, hvar]
  have hvk : max ((m₂ : EReal) - (μ : EReal) * (μ : EReal)) 0 = ((m₂ - μ * μ : ℝ) : EReal) := by
    rw [← EReal.coe_mul, ← EReal.coe_sub]
    exact max_eq_left (by exact_mod_cast hv0)
  rw [hS, hQ, hSc, hQc, hmean, hdev, hvr, hvk, ← EReal.coe_add]
  obtain ⟨r, hr⟩ := Cert.Gcn.Math.rsqrt_real (x := ((m₂ - μ * μ + e : ℝ) : EReal))
    ⟨_, add_pos_of_nonneg_of_pos hv0 he, rfl⟩
  rw [hr]
  exact_mod_cast (by ring : x * (g * r) + (b - μ * (g * r)) = (x - μ) * r * g + b)

/-- The law for a plane indexed by two coordinates: the sums are double sums, and the plane has `|α| · |β|` entries. -/
theorem norm_law₂ {α β : Type*} [Fintype α] [Fintype β] (f : α → β → ℝ) (x g b e N : ℝ) (he : 0 < e)
    (hN : N = ((Fintype.card α * Fintype.card β : ℕ) : ℝ)) (hpos : 0 < N) :
    (x : EReal) * ((g : EReal) * Ideal.rsqrt (max ((∑ p, ∑ q, (f p q : EReal) * (f p q : EReal)) * ((1 / N : ℝ) : EReal)
          - ((∑ p, ∑ q, (f p q : EReal)) * ((1 / N : ℝ) : EReal)) * ((∑ p, ∑ q, (f p q : EReal)) * ((1 / N : ℝ) : EReal))) 0 + (e : EReal)))
        + ((b : EReal) - ((∑ p, ∑ q, (f p q : EReal)) * ((1 / N : ℝ) : EReal))
            * ((g : EReal) * Ideal.rsqrt (max ((∑ p, ∑ q, (f p q : EReal) * (f p q : EReal)) * ((1 / N : ℝ) : EReal)
          - ((∑ p, ∑ q, (f p q : EReal)) * ((1 / N : ℝ) : EReal)) * ((∑ p, ∑ q, (f p q : EReal)) * ((1 / N : ℝ) : EReal))) 0 + (e : EReal))))
      = (((x : EReal) - Ideal.div (0 + ∑ p, ∑ q, (f p q : EReal)) (N : EReal))
          * Ideal.rsqrt (Ideal.div (0 + ∑ p, ∑ q, ((f p q : EReal) - Ideal.div (0 + ∑ p, ∑ q, (f p q : EReal)) (N : EReal))
              * ((f p q : EReal) - Ideal.div (0 + ∑ p, ∑ q, (f p q : EReal)) (N : EReal))) (N : EReal) + (e : EReal))) * (g : EReal)
        + (b : EReal) := by
  have h := norm_law (fun pq : α × β => f pq.1 pq.2) x g b e N he (by rw [hN, Fintype.card_prod]) hpos
  simp only [Fintype.sum_prod_type] at h
  exact h

end Cert.InstNorm

end
-- ==== Proof.Words.lean ====
/-
  The four float words of the two programs, as real numbers: `0x00000000` is 0 (the library's `ofBits_zero_f32`),
  `0x47800000` is 65536 = 2¹⁶, `0x37800000` is 2⁻¹⁶ = 1/65536 exactly, and `0x3727C5AC` (the float nearest 10⁻⁵) is the
  positive real 10995116 · 2⁻⁴⁰.
-/
import Idealize.ShloMosaic.PureOps.Ideal
import Idealize.ShloMosaic.PureOps.Ideal.Laws

noncomputable section

namespace Cert.InstNorm

open Idealize.ShloMosaic

theorem word_65536 : Ideal.ofBits .f32 0x47800000#32 = ((65536 : ℝ) : EReal) := by
  simp [Ideal.ofBits, Ideal.ieee, -EReal.coe_mul]; norm_num

theorem word_inv_65536 : Ideal.ofBits .f32 0x37800000#32 = ((1 / 65536 : ℝ) : EReal) := by
  simp [Ideal.ofBits, Ideal.ieee, -EReal.coe_mul]; norm_num

theorem word_eps : Ideal.ofBits .f32 0x3727C5AC#32 = (((10995116 : ℝ) / 2 ^ 40 : ℝ) : EReal) := by
  simp [Ideal.ofBits, Ideal.ieee, -EReal.coe_mul]; norm_num

theorem eps_pos : (0 : ℝ) < (10995116 : ℝ) / 2 ^ 40 := by positivity

end Cert.InstNorm

end
-- ==== Proof.KernelBlock.lean ====
/-
  What the kernel leaves in an output block, entry by entry.

  At a grid point the body holds the block of `x` (one sample, sixteen channels, the whole 256 × 256 plane of each) and
  the sixteen scales and shifts of those channels.  Entry (0, c, p, q) of the block it writes is

      x · (g · r) + (b - (S · 2⁻¹⁶) · (g · r)),    r = (max (Q · 2⁻¹⁶ - (S · 2⁻¹⁶)², 0) + ε)^(-1/2),

  with S and Q the sums of the channel's plane and of its squares (lanes first, then rows).  When the plane, the scale
  and the shift are real numbers this is `G` at the array index the entry lies under: the law of NormLaw.lean with
  N = 65536, the word `0x37800000` being 1/65536 exactly.
-/
import proofs.«108304_j48335561949473_2_alg».proof.Proof.Gen.KernelIdeal.Value
import proofs.«108304_j48335561949473_2_alg».proof.Proof.Spec
import proofs.«108304_j48335561949473_2_alg».proof.Proof.PlaneSums
import proofs.«108304_j48335561949473_2_alg».proof.Proof.NormLaw
import proofs.«108304_j48335561949473_2_alg».proof.Proof.Words
import proofs.«108304_j48335561949473_2_alg».proof.Proof.LibReal

noncomputable section

namespace Cert.InstNorm.Kernel

open Idealize.ShloMosaic Idealize.ShloMosaic.ValueIdx Cert.KernelIdeal Cert.KernelIdeal.Gen Cert.KernelIdeal.Value
open Cert.InstNorm Cert.Gcn Cert.Gcn.Math
open scoped BigOperators

/-! Where entry (0, c, p, q) of the block reads each operand: the block of `x` at the same index, the scale and the shift
    at (0, c, 0, 0), the two channel sums at (0, c, 0). -/

theorem at0 (c : Fin 16) (p q : Fin 256) : ix3_0 (ix4 (0 : Fin 1) c p q) = ix4 0 c p q :=
  funext fun a => match a with | ⟨0, _⟩ => rfl | ⟨1, _⟩ => rfl | ⟨2, _⟩ => rfl | ⟨3, _⟩ => rfl
theorem at1 (c : Fin 16) (p q : Fin 256) : ix3_1 (ix4 (0 : Fin 1) c p q) = ix4 0 c 0 0 :=
  funext fun a => match a with | ⟨0, _⟩ => rfl | ⟨1, _⟩ => rfl | ⟨2, _⟩ => rfl | ⟨3, _⟩ => rfl
theorem at5 (c : Fin 16) (p q : Fin 256) : ix3_5 (ix4 (0 : Fin 1) c p q) = ix4 0 c 0 0 :=
  funext fun a => match a with | ⟨0, _⟩ => rfl | ⟨1, _⟩ => rfl | ⟨2, _⟩ => rfl | ⟨3, _⟩ => rfl
theorem at7 (c : Fin 16) (p q : Fin 256) : ix3_7 (ix4 (0 : Fin 1) c p q) = ix4 0 c 0 0 :=
  funext fun a => match a with | ⟨0, _⟩ => rfl | ⟨1, _⟩ => rfl | ⟨2, _⟩ => rfl | ⟨3, _⟩ => rfl
theorem at2 (c : Fin 16) (p q : Fin 256) : ix3_2 (ix4 (0 : Fin 1) c p q) = ix3 0 c 0 :=
  funext fun a => match a with | ⟨0, _⟩ => rfl | ⟨1, _⟩ => rfl | ⟨2, _⟩ => rfl
theorem at3 (c : Fin 16) (p q : Fin 256) : ix3_3 (ix4 (0 : Fin 1) c p q) = ix3 0 c 0 :=
  funext fun a => match a with | ⟨0, _⟩ => rfl | ⟨1, _⟩ => rfl | ⟨2, _⟩ => rfl
theorem at4 (c : Fin 16) (p q : Fin 256) : ix3_4 (ix4 (0 : Fin 1) c p q) = ix3 0 c 0 :=
  funext fun a => match a with | ⟨0, _⟩ => rfl | ⟨1, _⟩ => rfl | ⟨2, _⟩ => rfl
theorem at6 (c : Fin 16) (p q : Fin 256) : ix3_6 (ix4 (0 : Fin 1) c p q) = ix3 0 c 0 :=
  funext fun a => match a with | ⟨0, _⟩ => rfl | ⟨1, _⟩ => rfl | ⟨2, _⟩ => rfl
theorem at8 (c : Fin 16) (p q : Fin 256) : ix3_8 (ix4 (0 : Fin 1) c p q) = ix3 0 c 0 :=
  funext fun a => match a with | ⟨0, _⟩ => rfl | ⟨1, _⟩ => rfl | ⟨2, _⟩ => rfl
theorem at9 (c : Fin 16) (p q : Fin 256) : ix3_9 (ix4 (0 : Fin 1) c p q) = ix3 0 c 0 :=
  funext fun a => match a with | ⟨0, _⟩ => rfl | ⟨1, _⟩ => rfl | ⟨2, _⟩ => rfl
theorem at10 (c : Fin 16) (p q : Fin 256) : ix3_10 (ix4 (0 : Fin 1) c p q) = ix3 0 c 0 :=
  funext fun a => match a with | ⟨0, _⟩ => rfl | ⟨1, _⟩ => rfl | ⟨2, _⟩ => rfl

/-- ENTRY (0, c, p, q) OF THE BLOCK is `G` at (n, ch, p, q), when the block of `x` is channel plane (n, ch) of a real
    array and the block's scale and shift are the real per-channel values at (n, ch). -/
theorem block_entry (P0 : Vec Ideal S1x16x256x256 .f32) (P1 P2 : Vec Ideal S1x16x1x1 .f32)
    (X : Arr.Idx → EReal) (g b : Chan.Idx → EReal) (n : Fin 16) (ch : Fin 64) (c : Fin 16)
    (hP0 : ∀ p q : Fin 256, P0 (ix4 0 c p q) = X (ix4 n ch p q))
    (hP1 : P1 (ix4 0 c 0 0) = g (ix2 n ch)) (hP2 : P2 (ix4 0 c 0 0) = b (ix2 n ch))
    (hX : IsReal X) (hg : IsReal g) (hb : IsReal b) (p q : Fin 256) :
    E3 P0 P1 P2 (ix4 0 c p q) = G X g b (ix4 n ch p q) := by
  obtain ⟨f, hf⟩ : ∃ f : Fin 256 → Fin 256 → ℝ, ∀ p q, X (ix4 n ch p q) = (f p q : EReal) :=
    ⟨fun p q => (X (ix4 n ch p q)).toReal, fun p q => (EReal.coe_toReal (hX _).1 (hX _).2).symm⟩
  obtain ⟨gr, hgr⟩ := exists_coe (hg (ix2 n ch))
  obtain ⟨br, hbr⟩ := exists_coe (hb (ix2 n ch))
  have hS : (multiReduction (F := Ideal) .add [2] S1x16x1 (shapeCast S1x16x256x1 (multiReduction (F := Ideal) .add [3] S1x16x256 P0 0x00000000#32 reduces_S1x16x256x256_S1x16x256 (.inl rfl) rfl) shapeCasts_S1x16x256_S1x16x256x1) 0x00000000#32 reduces_S1x16x256x1_S1x16x1 (.inl rfl) rfl) (ix3 0 c 0)
      = ∑ p : Fin 256, ∑ q : Fin 256, (f p q : EReal) :=
    (lanes_rows_sum P0 _ _ _ _ _ c).trans
      (Finset.sum_congr rfl fun p _ => Finset.sum_congr rfl fun q _ => (hP0 p q).trans (hf p q))
  have hQ : (multiReduction (F := Ideal) .add [2] S1x16x1 (shapeCast S1x16x256x1 (multiReduction (F := Ideal) .add [3] S1x16x256 (mulf P0 P0) 0x00000000#32 reduces_S1x16x256x256_S1x16x256 (.inl rfl) rfl) shapeCasts_S1x16x256_S1x16x256x1) 0x00000000#32 reduces_S1x16x256x1_S1x16x1 (.inl rfl) rfl) (ix3 0 c 0)
      = ∑ p : Fin 256, ∑ q : Fin 256, (f p q : EReal) * (f p q : EReal) :=
    (lanes_rows_sum (mulf P0 P0) _ _ _ _ _ c).trans
      (Finset.sum_congr rfl fun p _ => Finset.sum_congr rfl fun q _ => by
        show P0 (ix4 0 c p q) * P0 (ix4 0 c p q) = _
        rw [hP0 p q, hf p q])
  rw [G_apply]
  dsimp only [E3]
  rw [at0, at1, at2, at3, at4, at5, at6, at7, at8, at9, at10, hS, hQ, hP0 p q, hP1, hP2]
  simp only [Ideal.addf_def, Ideal.mulf_def, Ideal.subf_def, Ideal.maximumf_def, Ideal.rsqrt_def, Ideal.ofBits_def,
    variance, mean, hf, hgr, hbr]
  rw [word_65536, word_inv_65536, word_eps, Ideal.ofBits_zero_f32]
  exact norm_law₂ f (f p q) gr br _ 65536 eps_pos (by norm_num [Fintype.card_fin]) (by norm_num)

end Cert.InstNorm.Kernel

end
-- ==== Proof.HostWindows.lean ====
/-
  The per-channel scale and shift as the kernel's region finds them.

  Before the region the program turns each sample's style id into a row number of the [4, 64] style tables (a negative
  id counted from the end), gathers that row of the scale table and of the shift table for every sample, and reshapes
  the two [16, 64] results to [16, 64, 1, 1]: these are the arrays the second and third windows stage.
-/
import proofs.«108304_j48335561949473_2_alg».proof.Proof.Gen.KernelIdeal.Frame
import Idealize.ShloMosaic.Lib.StableHlo.Run
import Idealize.ShloMosaic.PureOps.Ideal

noncomputable section
namespace Cert.InstNorm.Kernel
open Idealize.ShloMosaic Idealize.ShloMosaic.TcCoe Idealize.SL.Sem Idealize.ShloMosaic.StableHlo
open Cert.KernelIdeal Cert.KernelIdeal.Gen

/-- The row of the style tables a sample reads: its style id, a negative id counted from the end. -/
def rowOf (s : IVec S16 32) : IVec S16x1 32 :=
  broadcastInDim S16x1 ![0] bcast_S16_S16x1_0
    (select (cmpi .slt s (broadcastInDim S16 ![] bcast_S_S16 (constantI S_ 32 0#32)))
      (addi s (broadcastInDim S16 ![] bcast_S_S16 (constantI S_ 32 4#32))) s)

/-- A style table gathered by the samples' rows. -/
def perChannel (t : FVec Ideal S4x64 .f32) (s : IVec S16 32) : FVec Ideal S16x64 .f32 :=
  Host.gather gather_S4x64_S16x1_S16x64_1_0_n_n_0_1_164 t (rowOf s)

variable (m : (ℓ : Loc nD τ sig) → Buf (Elt Ideal) ℓ)

theorem V_scale (c : Dev nD) :
    (V m c main_v7 : S16x64x1x1.Idx → EReal)
      = shapeCast S16x64x1x1 (perChannel (m ((c : Thread nD τ).loc main_arg2)) (m ((c : Thread nD τ).loc main_arg1))) shapeCasts_S16x64_S16x64x1x1 := by
  dsimp only [V, hostOps0]; after_results; rfl

theorem V_shift (c : Dev nD) :
    (V m c main_v15 : S16x64x1x1.Idx → EReal)
      = shapeCast S16x64x1x1 (perChannel (m ((c : Thread nD τ).loc main_arg3)) (m ((c : Thread nD τ).loc main_arg1))) shapeCasts_S16x64_S16x64x1x1 := by
  dsimp only [V, hostOps0]; after_results; rfl

end Cert.InstNorm.Kernel
end
-- ==== Proof.LibTrailingUnits.lean ====
/-
  A reshape that appends two unit axes, read at an index: entry (n, c, 0, 0) of an [a, b] array reshaped to [a, b, 1, 1]
  is entry (n, c) of the array (the two indices have the same row-major position n · b + c).
-/
import Idealize.ShloMosaic.Lib.Pipeline.Value
import Idealize.ShloMosaic.Lib.ValueIdx
import Idealize.ShloMosaic.Lib.ValueLayout

noncomputable section

namespace Cert.TrailingUnits

open Idealize.ShloMosaic Idealize.ShloMosaic.ValueIdx

/-- An [a, b] array reshaped to [a, b, 1, 1], read at (n, c, u, v): the array at (n, c). -/
theorem shapeCast_ab11_apply {a b : ℕ} {α : Type} (x : (⟨2, ![a, b]⟩ : Shape).Idx → α)
    (h : (⟨2, ![a, b]⟩ : Shape).ShapeCasts ⟨4, ![a, b, 1, 1]⟩) (n : Fin a) (c : Fin b) (u v : Fin 1) :
    shapeCast ⟨4, ![a, b, 1, 1]⟩ x h (ix4 n c u v) = x (ix2 n c) :=
  shapeCast_apply x h _ (ix2 n c) (by
    rw [Shape.rowMajor_val_two, Shape.rowMajor_val_four]
    show n.val * b + c.val = ((n.val * b + c.val) * 1 + u.val) * 1 + v.val
    have hu := u.isLt
    have hv := v.isLt
    simp only [Nat.mul_one]
    omega)

end Cert.TrailingUnits

end
-- ==== Proof.KernelRun.lean ====
/-
  From blocks to the array: after the kernel's run the output array is `G`.

  Grid point (i, j) stages sample i's channels 16j … 16j+15 — the block of `x` with both of its planes' axes whole, and
  the sixteen scales and shifts of those channels — and writes back the block of the output at the same place.  Entry
  (0, c, p, q) of that block lies under array index (i, 16j + c, p, q), so by KernelBlock.lean each point writes back the
  block of `G` there; the 16 × 4 blocks tile the array (the point covering (n, ch, p, q) is (n, ch / 16)), hence the
  array ends holding `G`, provided the argument arrays hold real numbers.
-/
import proofs.«108304_j48335561949473_2_alg».proof.Proof.Gen.KernelIdeal.Value
import proofs.«108304_j48335561949473_2_alg».proof.Proof.KernelBlock
import proofs.«108304_j48335561949473_2_alg».proof.Proof.HostWindows
import proofs.«108304_j48335561949473_2_alg».proof.Proof.LibTrailingUnits

noncomputable section

namespace Cert.InstNorm.Kernel

open Idealize.ShloMosaic Idealize.ShloMosaic.TcCoe Idealize.ShloMosaic.ValueIdx Idealize.SL.Sem
open Cert.KernelIdeal Cert.KernelIdeal.Gen Cert.KernelIdeal.Value Cert.InstNorm Cert.Gcn
open Idealize.ShloMosaic.Pipeline (Dat)

variable (m : (ℓ : Loc nD τ sig) → Buf (Elt Ideal) ℓ) (ρ : Dev nD → PrngReg)

theorem zero_offsets : (![0, 0, 0, 0] : Fin 4 → Nat) = fun _ => 0 := funext fun a => by fin_cases a <;> rfl

/-- The printed index maps, decided over the 64 grid points: every input window sits at the output window's sample and
    channel group, no window moves along the plane's axes, and the output's sample and channel group stay in range. -/
theorem index_facts : ∀ t : Fin cfg0.N,
      win0_0.index t (0 : Fin 4) = win0_3.index t (0 : Fin 4) ∧ win0_0.index t (1 : Fin 4) = win0_3.index t (1 : Fin 4)
    ∧ win0_0.index t (2 : Fin 4) = 0 ∧ win0_0.index t (3 : Fin 4) = 0
    ∧ win0_1.index t (0 : Fin 4) = win0_3.index t (0 : Fin 4) ∧ win0_1.index t (1 : Fin 4) = win0_3.index t (1 : Fin 4)
    ∧ win0_1.index t (2 : Fin 4) = 0 ∧ win0_1.index t (3 : Fin 4) = 0
    ∧ win0_2.index t (0 : Fin 4) = win0_3.index t (0 : Fin 4) ∧ win0_2.index t (1 : Fin 4) = win0_3.index t (1 : Fin 4)
    ∧ win0_2.index t (2 : Fin 4) = 0 ∧ win0_2.index t (3 : Fin 4) = 0
    ∧ win0_3.index t (2 : Fin 4) = 0 ∧ win0_3.index t (3 : Fin 4) = 0
    ∧ win0_3.index t (0 : Fin 4) < 16 ∧ win0_3.index t (1 : Fin 4) < 4 :=
  (by decide +kernel : ∀ t : Fin grid0.N, _)

/-- Every (sample, channel group) is some grid point's. -/
theorem index_onto : ∀ (q0 : Fin 16) (q1 : Fin 4), ∃ t : Fin cfg0.N, win0_3.index t = ![q0.val, q1.val, 0, 0] :=
  (by decide +kernel : ∀ (q0 : Fin 16) (q1 : Fin 4), ∃ t : Fin grid0.N, win0_3.index t = ![q0.val, q1.val, 0, 0])

/-- `block_entry` at any index of the block (its first coordinate is 0: that axis has one entry). -/
theorem block_entry_at (P0 : Vec Ideal S1x16x256x256 .f32) (P1 P2 : Vec Ideal S1x16x1x1 .f32)
    (X : Arr.Idx → EReal) (g b : Chan.Idx → EReal) (n : Fin 16) (ch : Fin 64) (y : S1x16x256x256.Idx)
    (hP0 : ∀ p q : Fin 256, P0 (ix4 0 (y 1) p q) = X (ix4 n ch p q))
    (hP1 : P1 (ix4 0 (y 1) 0 0) = g (ix2 n ch)) (hP2 : P2 (ix4 0 (y 1) 0 0) = b (ix2 n ch))
    (hX : IsReal X) (hg : IsReal g) (hb : IsReal b) :
    E3 P0 P1 P2 y = G X g b (ix4 n ch (y 2) (y 3)) := by
  have hy : y = ix4 0 (y 1) (y 2) (y 3) := by
    funext a
    match a with
    | ⟨0, _⟩ => exact Fin.ext (by have h0 : (y 0).val < 1 := (y 0).isLt; show (y 0).val = 0; omega)
    | ⟨1, _⟩ => rfl
    | ⟨2, _⟩ => rfl
    | ⟨3, _⟩ => rfl
  exact (congrArg (E3 P0 P1 P2) hy).trans (block_entry P0 P1 P2 X g b n ch (y 1) hP0 hP1 hP2 hX hg hb (y 2) (y 3))

/-- WHAT POINT `t` WRITES BACK is block `t` of `G` of the array of `x` and the gathered scales and shifts. -/
theorem flushed_eq (c : Dev nD)
    (hX : IsReal (S := Arr) (V m c main_arg0))
    (hg : IsReal (S := Chan) (perChannel (m ((c : Thread nD τ).loc main_arg2)) (m ((c : Thread nD τ).loc main_arg1))))
    (hb : IsReal (S := Chan) (perChannel (m ((c : Thread nD τ).loc main_arg3)) (m ((c : Thread nD τ).loc main_arg1))))
    (t : Fin cfg0.N) :
    (dats m 0 c).flushed 3 t = ((cfg0.win 3).blk t).view.read (Elt Ideal)
      (G (V m c main_arg0) (perChannel (m ((c : Thread nD τ).loc main_arg2)) (m ((c : Thread nD τ).loc main_arg1)))
        (perChannel (m ((c : Thread nD τ).loc main_arg3)) (m ((c : Thread nD τ).loc main_arg1)))) := by
  rw [Value.flushed3]
  unfold out0_3
  obtain ⟨a0, a1, a2, a3, b0, b1, b2, b3, c0, c1, c2, c3, d2, d3, d0, d1⟩ := index_facts t
  funext j
  have hj0 : (j 0).val < 1 := (j 0).isLt
  have hj1 : (j 1).val < 16 := (j 1).isLt
  have hj2 : (j 2).val < 256 := (j 2).isLt
  have hj3 : (j 3).val < 256 := (j 3).isLt
  show View.canon ([⟨r0_0, k0_pay1 (View.ld (iblk m c 0 t) r0_0) (View.ld (iblk m c 1 t) r0_1) (View.ld (iblk m c 2 t) r0_1)⟩] : List (View.Piece (Elt Ideal) S1x16x256x256 .f32)) j
      = G (V m c main_arg0) _ _ (((cfg0.win 3).blk t).view.emb j)
  rw [canon3_eq, View.ld_unit_zero (S := S1x16x256x256) zero_offsets, View.ld_unit_zero (S := S1x16x1x1) zero_offsets,
    View.ld_unit_zero (S := S1x16x1x1) zero_offsets]
  refine (block_entry_at (iblk m c 0 t) (iblk m c 1 t) (iblk m c 2 t) (V m c main_arg0) _ _
    ⟨win0_3.index t (0 : Fin 4), d0⟩ ⟨win0_3.index t (1 : Fin 4) * 16 + (j 1).val, by omega⟩ j ?_ ?_ ?_ hX hg hb).trans ?_
  · intro p q
    show V m c main_arg0 (((cfg0.win 0).blk t).view.emb (ix4 0 (j 1) p q)) = _
    refine congrArg (V m c main_arg0) (funext fun a => Fin.ext ?_)
    match a with
    | ⟨0, _⟩ => show win0_0.index t (0 : Fin 4) * 1 + 1 * 0 = win0_3.index t (0 : Fin 4); omega
    | ⟨1, _⟩ => show win0_0.index t (1 : Fin 4) * 16 + 1 * (j 1).val = win0_3.index t (1 : Fin 4) * 16 + (j 1).val; omega
    | ⟨2, _⟩ => show win0_0.index t (2 : Fin 4) * 256 + 1 * p.val = p.val; omega
    | ⟨3, _⟩ => show win0_0.index t (3 : Fin 4) * 256 + 1 * q.val = q.val; omega
  · have e : ((cfg0.win 1).blk t).view.emb (ix4 0 (j 1) 0 0)
        = ix4 (⟨win0_3.index t (0 : Fin 4), d0⟩ : Fin 16) (⟨win0_3.index t (1 : Fin 4) * 16 + (j 1).val, by omega⟩ : Fin 64) (0 : Fin 1) (0 : Fin 1) := by
      funext a; apply Fin.ext
      match a with
      | ⟨0, _⟩ => show win0_1.index t (0 : Fin 4) * 1 + 1 * 0 = win0_3.index t (0 : Fin 4); omega
      | ⟨1, _⟩ => show win0_1.index t (1 : Fin 4) * 16 + 1 * (j 1).val = win0_3.index t (1 : Fin 4) * 16 + (j 1).val; omega
      | ⟨2, _⟩ => show win0_1.index t (2 : Fin 4) * 1 + 1 * 0 = 0; omega
      | ⟨3, _⟩ => show win0_1.index t (3 : Fin 4) * 1 + 1 * 0 = 0; omega
    show V m c main_v7 (((cfg0.win 1).blk t).view.emb (ix4 0 (j 1) 0 0)) = _
    rw [e, V_scale]
    exact Cert.TrailingUnits.shapeCast_ab11_apply _ _ _ _ _ _
  · have e : ((cfg0.win 2).blk t).view.emb (ix4 0 (j 1) 0 0)
        = ix4 (⟨win0_3.index t (0 : Fin 4), d0⟩ : Fin 16) (⟨win0_3.index t (1 : Fin 4) * 16 + (j 1).val, by omega⟩ : Fin 64) (0 : Fin 1) (0 : Fin 1) := by
      funext a; apply Fin.ext
      match a with
      | ⟨0, _⟩ => show win0_2.index t (0 : Fin 4) * 1 + 1 * 0 = win0_3.index t (0 : Fin 4); omega
      | ⟨1, _⟩ => show win0_2.index t (1 : Fin 4) * 16 + 1 * (j 1).val = win0_3.index t (1 : Fin 4) * 16 + (j 1).val; omega
      | ⟨2, _⟩ => show win0_2.index t (2 : Fin 4) * 1 + 1 * 0 = 0; omega
      | ⟨3, _⟩ => show win0_2.index t (3 : Fin 4) * 1 + 1 * 0 = 0; omega
    show V m c main_v15 (((cfg0.win 2).blk t).view.emb (ix4 0 (j 1) 0 0)) = _
    rw [e, V_shift]
    exact Cert.TrailingUnits.shapeCast_ab11_apply _ _ _ _ _ _
  · refine congrArg (G (V m c main_arg0) _ _) (funext fun a => Fin.ext ?_)
    match a with
    | ⟨0, _⟩ => show win0_3.index t (0 : Fin 4) = win0_3.index t (0 : Fin 4) * 1 + 1 * (j 0).val; omega
    | ⟨1, _⟩ => show win0_3.index t (1 : Fin 4) * 16 + (j 1).val = win0_3.index t (1 : Fin 4) * 16 + 1 * (j 1).val; omega
    | ⟨2, _⟩ => show (j 2).val = win0_3.index t (2 : Fin 4) * 256 + 1 * (j 2).val; omega
    | ⟨3, _⟩ => show (j 3).val = win0_3.index t (3 : Fin 4) * 256 + 1 * (j 3).val; omega

/-- An index of the array is in point `t`'s block iff each coordinate is in the block's range on its axis. -/
theorem mem_block (t : Fin cfg0.N) (i : S16x64x256x256.Idx) :
    i ∈ ((cfg0.win 3).blk t).view.set ↔ ∀ a : Fin 4, win0_3.index t a * S1x16x256x256.size a ≤ (i a).val
      ∧ (i a).val < win0_3.index t a * S1x16x256x256.size a + S1x16x256x256.size a := by
  show i ∈ ((View.whole main_v16).slice (win0_3.rect t)).set ↔ _
  rw [View.set_slice_whole, Rect.mem_set_unit]
  exact Iff.rfl

/-- The blocks tile the array: index (n, ch, p, q) is in the block of the point at sample n, channel group ch / 16. -/
theorem cover (i : S16x64x256x256.Idx) :
    ∃ t : Fin cfg0.N, (cfg0.win 3).flush t = true ∧ i ∈ ((cfg0.win 3).blk t).view.set := by
  have hi0 : (i 0).val < 16 := (i 0).isLt
  have hi1 : (i 1).val < 64 := (i 1).isLt
  have hi2 : (i 2).val < 256 := (i 2).isLt
  have hi3 : (i 3).val < 256 := (i 3).isLt
  obtain ⟨t, ht⟩ := index_onto ⟨(i 0).val, hi0⟩ ⟨(i 1).val / 16, by omega⟩
  have q0 : win0_3.index t (0 : Fin 4) = (i 0).val := congrFun ht 0
  have q1 : win0_3.index t (1 : Fin 4) = (i 1).val / 16 := congrFun ht 1
  have q2 : win0_3.index t (2 : Fin 4) = 0 := congrFun ht 2
  have q3 : win0_3.index t (3 : Fin 4) = 0 := congrFun ht 3
  refine ⟨t, flush0_3 t, ?_⟩
  rw [mem_block]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 16 ≤ (i 1).val ∧ (i 1).val < win0_3.index t (1 : Fin 4) * 16 + 16; omega
  | ⟨2, _⟩ => show win0_3.index t (2 : Fin 4) * 256 ≤ (i 2).val ∧ (i 2).val < win0_3.index t (2 : Fin 4) * 256 + 256; omega
  | ⟨3, _⟩ => show win0_3.index t (3 : Fin 4) * 256 ≤ (i 3).val ∧ (i 3).val < win0_3.index t (3 : Fin 4) * 256 + 256; omega

/-- THE ARRAY after the run is `G` of the argument array of `x` and the gathered scales and shifts. -/
theorem final (c : Dev nD)
    (hX : IsReal (S := Arr) (m ((c : Thread nD τ).loc main_arg0)))
    (hg : IsReal (S := Chan) (perChannel (m ((c : Thread nD τ).loc main_arg2)) (m ((c : Thread nD τ).loc main_arg1))))
    (hb : IsReal (S := Chan) (perChannel (m ((c : Thread nD τ).loc main_arg3)) (m ((c : Thread nD τ).loc main_arg1)))) :
    (dats m 0 c).arrAt 3 cfg0.N
      = G (m ((c : Thread nD τ).loc main_arg0)) (perChannel (m ((c : Thread nD τ).loc main_arg2)) (m ((c : Thread nD τ).loc main_arg1)))
        (perChannel (m ((c : Thread nD τ).loc main_arg3)) (m ((c : Thread nD τ).loc main_arg1))) := by
  have hX' : IsReal (S := Arr) (V m c main_arg0) := by rw [V_main_arg0]; exact hX
  have h := (dats m 0 c).arrAt_eq_of_cover 3 _ (fun t _ => flushed_eq m c hX' hg hb t) cover
  rw [V_main_arg0] at h
  exact h

/-- The kernel's run with the output array at `G` and the arguments unchanged, when the arguments hold real numbers. -/
theorem run
    (hX : ∀ c : Dev nD, IsReal (S := Arr) (m ((c : Thread nD τ).loc main_arg0)))
    (hg : ∀ c : Dev nD, IsReal (S := Chan) (perChannel (m ((c : Thread nD τ).loc main_arg2)) (m ((c : Thread nD τ).loc main_arg1))))
    (hb : ∀ c : Dev nD, IsReal (S := Chan) (perChannel (m ((c : Thread nD τ).loc main_arg3)) (m ((c : Thread nD τ).loc main_arg1)))) :
    θ_run defs (onTc (τ := τ) (main (F := Ideal))) ⟨m, fun _ => 0, ρ⟩ fun r => ∀ c : Dev nD,
      r.2.mem ((c : Thread nD τ).loc main_v16)
        = G (m ((c : Thread nD τ).loc main_arg0)) (perChannel (m ((c : Thread nD τ).loc main_arg2)) (m ((c : Thread nD τ).loc main_arg1)))
          (perChannel (m ((c : Thread nD τ).loc main_arg3)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hX c) (hg c) (hb c)), (h c).2⟩)
    (Value.run_blocks m ρ)

end Cert.InstNorm.Kernel

end
-- ==== Proof.RefRead.lean ====
/-
  The reference program computes `G`.

  Read one operation at a time: the two sums along axes 2 and 3 are double sums over a channel plane, the broadcasts
  carry a per-channel value to every entry of its plane, and the per-channel scale and shift are whatever the two
  gathers produce — they enter `G` as arrays, unread.
-/
import proofs.«108304_j48335561949473_2_alg».proof.Proof.Gen.ReferenceIdeal.Read
import proofs.«108304_j48335561949473_2_alg».proof.Proof.Spec
import proofs.«108304_j48335561949473_2_alg».proof.Proof.PlaneSums

noncomputable section

namespace Cert.InstNorm.Ref

open Idealize.ShloMosaic Idealize.ShloMosaic.ValueIdx Cert.ReferenceIdeal Cert.ReferenceIdeal.Read Cert.InstNorm
open scoped BigOperators

/-! The generated index functions at an index given by its coordinates: a broadcast from [16, 64] or [16, 64, 1, 1]
    reads its operand at the channel's index. -/

theorem idx1 (n : Fin 16) (c : Fin 64) : idx_main_v1 (ix4 n c (0 : Fin 1) (0 : Fin 1)) = ix2 n c :=
  funext fun a => match a with | ⟨0, _⟩ => rfl | ⟨1, _⟩ => rfl
theorem idx8 (n : Fin 16) (c : Fin 64) : idx_main_v8 (ix4 n c (0 : Fin 1) (0 : Fin 1)) = ix2 n c :=
  funext fun a => match a with | ⟨0, _⟩ => rfl | ⟨1, _⟩ => rfl
theorem idx25 (n : Fin 16) (c : Fin 64) : idx_main_v25 (ix4 n c (0 : Fin 1) (0 : Fin 1)) = ix2 n c :=
  funext fun a => match a with | ⟨0, _⟩ => rfl | ⟨1, _⟩ => rfl
theorem idx33 (n : Fin 16) (c : Fin 64) : idx_main_v33 (ix4 n c (0 : Fin 1) (0 : Fin 1)) = ix2 n c :=
  funext fun a => match a with | ⟨0, _⟩ => rfl | ⟨1, _⟩ => rfl
theorem idx4 (n : Fin 16) (c : Fin 64) (p q : Fin 256) : idx_main_v4 (ix4 n c p q) = ix4 n c 0 0 :=
  funext fun a => match a with | ⟨0, _⟩ => rfl | ⟨1, _⟩ => rfl | ⟨2, _⟩ => rfl | ⟨3, _⟩ => rfl
theorem idx11 (n : Fin 16) (c : Fin 64) (p q : Fin 256) : idx_main_v11 (ix4 n c p q) = ix4 n c 0 0 :=
  funext fun a => match a with | ⟨0, _⟩ => rfl | ⟨1, _⟩ => rfl | ⟨2, _⟩ => rfl | ⟨3, _⟩ => rfl
theorem idx16 (n : Fin 16) (c : Fin 64) (p q : Fin 256) : idx_main_v16 (ix4 n c p q) = ix4 n c 0 0 :=
  funext fun a => match a with | ⟨0, _⟩ => rfl | ⟨1, _⟩ => rfl | ⟨2, _⟩ => rfl | ⟨3, _⟩ => rfl
theorem idx34 (n : Fin 16) (c : Fin 64) (p q : Fin 256) : idx_main_v34 (ix4 n c p q) = ix4 n c 0 0 :=
  funext fun a => match a with | ⟨0, _⟩ => rfl | ⟨1, _⟩ => rfl | ⟨2, _⟩ => rfl | ⟨3, _⟩ => rfl
theorem idx36 (n : Fin 16) (c : Fin 64) (p q : Fin 256) : idx_main_v36 (ix4 n c p q) = ix4 n c 0 0 :=
  funext fun a => match a with | ⟨0, _⟩ => rfl | ⟨1, _⟩ => rfl | ⟨2, _⟩ => rfl | ⟨3, _⟩ => rfl

/-- The first sum (of the array itself) at a channel. -/
theorem sum0_apply (x0 : Arr.Idx → EReal) (n : Fin 16) (c : Fin 64) :
    val_main_v0 (F := Ideal) x0 (ix2 n c)
      = Ideal.ofBits .f32 0x00000000#32 + ∑ p : Fin 256, ∑ q : Fin 256, x0 (ix4 n c p q) :=
  Cert.TrailingSum.hostReduceAdd_trailing2 _ x0 _ (ix2 n c)

/-- The mean, already broadcast to [16, 64, 1, 1]. -/
theorem mean_apply (x0 : Arr.Idx → EReal) (n : Fin 16) (c : Fin 64) :
    val_main_v3 (F := Ideal) x0 (ix4 n c 0 0) = mean x0 n c := by
  rw [val_main_v3_apply, val_main_v1_apply, val_main_v2_apply, val_main_cst_0_apply, idx1]
  exact congrArg (fun s => Ideal.div s _) (sum0_apply x0 n c)

/-- The second sum (of the squared deviations) at a channel. -/
theorem sum7_apply (x0 : Arr.Idx → EReal) (n : Fin 16) (c : Fin 64) :
    val_main_v7 (F := Ideal) x0 (ix2 n c)
      = Ideal.ofBits .f32 0x00000000#32
        + ∑ p : Fin 256, ∑ q : Fin 256, (x0 (ix4 n c p q) - mean x0 n c) * (x0 (ix4 n c p q) - mean x0 n c) := by
  refine (Cert.TrailingSum.hostReduceAdd_trailing2 _ (val_main_v6 (F := Ideal) x0) _ (ix2 n c)).trans ?_
  refine congrArg (fun s => _ + s) (Finset.sum_congr rfl fun p _ => Finset.sum_congr rfl fun q _ => ?_)
  rw [val_main_v6_apply, val_main_v5_apply, val_main_v4_apply]
  show (x0 (ix4 n c p q) - val_main_v3 (F := Ideal) x0 (idx_main_v4 (ix4 n c p q)))
      * (x0 (ix4 n c p q) - val_main_v3 (F := Ideal) x0 (idx_main_v4 (ix4 n c p q))) = _
  rw [idx4]
  exact congrArg (fun m => (x0 (ix4 n c p q) - m) * (x0 (ix4 n c p q) - m)) (mean_apply x0 n c)

/-- The variance, already broadcast to [16, 64, 1, 1]. -/
theorem variance_apply (x0 : Arr.Idx → EReal) (n : Fin 16) (c : Fin 64) :
    val_main_v10 (F := Ideal) x0 (ix4 n c 0 0) = variance x0 n c := by
  rw [val_main_v10_apply, val_main_v8_apply, val_main_v9_apply, val_main_cst_2_apply, idx8]
  exact congrArg (fun s => Ideal.div s _) (sum7_apply x0 n c)

/-- THE REFERENCE IS `G` of the array and of the two gathered per-channel arrays. -/
theorem result_eq (x0 : Arr.Idx → EReal) (x1 : IVec S16 32) (x2 x3 : S4x64.Idx → EReal) :
    val_main_v37 (F := Ideal) x0 x1 x2 x3
      = G x0 (val_main_v24 (F := Ideal) x1 x2) (val_main_v32 (F := Ideal) x1 x3) := by
  funext i
  obtain ⟨n, c, p, q, rfl⟩ : ∃ (n : Fin 16) (c : Fin 64) (p q : Fin 256), i = ix4 n c p q :=
    ⟨i 0, i 1, i 2, i 3, eq_ix4 i⟩
  rw [val_main_v37_apply, val_main_v35_apply, val_main_v17_apply, val_main_v12_apply, val_main_v11_apply,
    val_main_v16_apply, val_main_v15_apply, val_main_v14_apply, val_main_v13_apply, val_main_cst_3_apply,
    val_main_v34_apply, val_main_v25_apply, val_main_v36_apply, val_main_v33_apply,
    idx11, idx16, idx34, idx36, idx25, idx33, mean_apply, variance_apply]
  rfl

end Cert.InstNorm.Ref

end
-- ==== Proof.FiniteInputs.lean ====
/-
  The precondition, read: every entry of the array `x` and of the two style tables is a real number.

  The printed precondition is the conjunction of three `all`s, each of `|entry| < +∞` over one float argument.  An `all`
  that holds gives the comparison at every index, and an extended real whose absolute value is below +∞ is
  neither infinity.
-/
import proofs.«108304_j48335561949473_2_alg».proof.Pre_finite_inputs
import proofs.«108304_j48335561949473_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws
import proofs.«108304_j48335561949473_2_alg».proof.Proof.LibReal

noncomputable section

namespace Cert.InstNorm

open Idealize.ShloMosaic Cert.Gcn

instance scalarIdxSubsingleton : Subsingleton Cert.Pre_finite_inputs.S_.Idx := ⟨fun a b => funext fun d => d.elim0⟩

/-- An extended real whose absolute value is below the word `0x7F800000` (+∞) is a real number. -/
theorem real_of_abs_lt_inf (a : EReal)
    (h : FloatOps.cmpf (F := Ideal) (φ := .f32) .olt (FloatOps.hostAbsf a) (FloatOps.ofBits .f32 0x7F800000#32) = 1#1) :
    a ≠ ⊤ ∧ a ≠ ⊥ := by
  have hinf : Ideal.ofBits .f32 0x7F800000#32 = ⊤ := by simp [Ideal.ofBits, Ideal.ieee]
  have h' : max a (-a) < ⊤ := by
    have : Ideal.cmp .olt (max a (-a)) (Ideal.ofBits .f32 0x7F800000#32) = 1#1 := h
    rw [hinf] at this
    unfold Ideal.cmp at this
    by_contra hc
    simp [hc] at this
  constructor
  · rintro rfl; simp at h'
  · rintro rfl; simp at h'

/-- THE PRECONDITION gives three arrays of real numbers. -/
theorem reals_of_pre (x : FVec Ideal Cert.Pre_finite_inputs.S16x64x256x256 .f32) (s : IVec Cert.Pre_finite_inputs.S16 32)
    (ga be : FVec Ideal Cert.Pre_finite_inputs.S4x64 .f32)
    (h : Cert.Pre_finite_inputs.fn (F := Ideal) x s ga be = fun _ => 1#1) :
    IsReal x ∧ IsReal ga ∧ IsReal be := by
  have h0 := congrFun h ValueIdx.ix0
  dsimp only [Cert.Pre_finite_inputs.fn] at h0
  obtain ⟨h01, h2⟩ := IntOp.andi_eq_one.mp h0
  obtain ⟨hx, hg⟩ := IntOp.andi_eq_one.mp h01
  refine ⟨fun i => real_of_abs_lt_inf _ ?_, fun i => real_of_abs_lt_inf _ ?_, fun i => real_of_abs_lt_inf _ ?_⟩
  · exact Host.reduce_andi_all _ _ _ _ _ hx i
  · exact Host.reduce_andi_all _ _ _ _ _ hg i
  · exact Host.reduce_andi_all _ _ _ _ _ h2 i

end Cert.InstNorm

end
-- ==== Proof.lean ====
/-
  Conditional instance normalisation: the kernel and its reference compute one function of their arguments.

  For `x : [16, 64, 256, 256]`, style ids `styles : [16]` and style tables `gamma, beta : [4, 64]`, both programs gather,
  for every sample, the row of `gamma` and of `beta` its style id names, and return, at (n, c, p, q),

      ((x(n,c,p,q) - μ) · (σ² + ε)^(-1/2)) · g(n,c) + b(n,c),

  μ and σ² the mean and variance of channel plane x(n,c,·,·).  The reference computes exactly this (RefRead.lean).  The
  kernel computes, block by block, `x · (g · r) + (b - μ · (g · r))` with the variance taken as the clamped difference
  `max (E[x²] - μ², 0)` and the means as products with 2⁻¹⁶; on real numbers that is the same value (NormLaw.lean,
  KernelBlock.lean), and its blocks tile the array (KernelRun.lean).  The law distributes a product over a difference,
  which fails at the infinities, so the precondition — every float input finite — is used: it makes `x`, and the gathered
  rows of the finite tables, arrays of real numbers (FiniteInputs.lean).

  The three frames are the generated ones (the reference's is its generated run with the result dropped); the
  idealisation rewrote no operation, so `preserves` is trivial.
-/
import proofs.«108304_j48335561949473_2_alg».proof.Defs
import proofs.«108304_j48335561949473_2_alg».proof.Proof.Gen.Kernel
import proofs.«108304_j48335561949473_2_alg».proof.Proof.Gen.Kernel.Frame
import proofs.«108304_j48335561949473_2_alg».proof.Proof.Gen.KernelIdeal
import proofs.«108304_j48335561949473_2_alg».proof.Proof.Gen.KernelIdeal.Frame
import proofs.«108304_j48335561949473_2_alg».proof.Proof.Gen.ReferenceIdeal
import proofs.«108304_j48335561949473_2_alg».proof.Proof.Gen.Pre_finite_inputs
import proofs.«108304_j48335561949473_2_alg».proof.Proof.Gen.KernelIdeal.Value
import proofs.«108304_j48335561949473_2_alg».proof.Proof.Gen.ReferenceIdeal.Run
import proofs.«108304_j48335561949473_2_alg».proof.Proof.Gen.ReferenceIdeal.Read
import proofs.«108304_j48335561949473_2_alg».proof.Proof.KernelRun
import proofs.«108304_j48335561949473_2_alg».proof.Proof.RefRead
import proofs.«108304_j48335561949473_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealised kernel's output array and the reference's result are both `G` of the array of `x` and the two gathered
    per-channel arrays, from memories that agree on the arguments and hold finite floats. -/
theorem algebraic : Cert.algebraic_KernelIdeal_ReferenceIdeal := by
  intro m ρ m' ρ' hpre hagree
  have hr := fun c => Cert.InstNorm.reals_of_pre _ _ _ _ (hpre c)
  refine ⟨_, Cert.InstNorm.Kernel.run m ρ (fun c => (hr c).1)
    (fun c => Cert.Gcn.Math.gather_real _ _ (hr c).2.1) (fun c => Cert.Gcn.Math.gather_real _ _ (hr c).2.2), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v37_eq _ _ _ _).trans (Cert.InstNorm.Ref.result_eq _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
